-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64x128 : Shape := ⟨3, ![4096, 64, 128]⟩
abbrev S_ : Shape := ⟨0, ![]⟩

class Facts : Prop where
  bcast_S_S4096x64x128 : S_.BroadcastsInDim S4096x64x128 (![] : Fin 0 → Fin S4096x64x128.rank)
  reducesTo_S4096x64x128_S_d0_1_2 : S4096x64x128.ReducesTo [0, 1, 2] S_
  h_S_ : 0 < S_.numel

variable [Facts]

def fn {F : FTy → Type} [FloatOps F] (main_arg0 : FVec F S4096x64x128 .f32) : IVec S_ 1 :=
  let main_v0 : FVec F S4096x64x128 .f32 := Host.absf main_arg0
  let main_cst : FVec F S_ .f32 := constant S_ .f32 0x7F800000#32
  let main_v1 : FVec F S4096x64x128 .f32 := broadcastInDim S4096x64x128 ![] bcast_S_S4096x64x128 main_cst
  let main_v2 : IVec S4096x64x128 1 := cmpf .olt main_v0 main_v1
  let main_c : IVec S_ 1 := constantI S_ 1 1#1
  let main_v3 : IVec S_ 1 := (fun x v => Host.reduce IntOp.andi x v reducesTo_S4096x64x128_S_d0_1_2 h_S_) main_v2 main_c
  main_v3
-- ==== Kernel.lean ====
abbrev S4096x64x128 : Shape := ⟨3, ![4096, 64, 128]⟩
abbrev S128x64x128 : Shape := ⟨3, ![128, 64, 128]⟩
abbrev S128x128 : Shape := ⟨2, ![128, 128]⟩
abbrev S128x1x128 : Shape := ⟨3, ![128, 1, 128]⟩
abbrev S4096x8192 : Shape := ⟨2, ![4096, 8192]⟩

abbrev nBuf : Space → Nat
  | .hbm => 3
  | .vmem => 4
  | .smem => 0
  | _ => 0

abbrev bufTy : (tb : Table) → Fin (tcTables nBuf tb) → BufTy
  | .hbm, ⟨0, _⟩ => ⟨S4096x64x128, .f32⟩
  | .hbm, ⟨1, _⟩ => ⟨S4096x64x128, .f32⟩
  | .hbm, ⟨2, _⟩ => ⟨S4096x8192, .f32⟩
  | .local _ .vmem, ⟨0, _⟩ => ⟨S128x64x128, .f32⟩
  | .local _ .vmem, ⟨1, _⟩ => ⟨S128x64x128, .f32⟩
  | .local _ .vmem, ⟨2, _⟩ => ⟨S128x64x128, .f32⟩
  | .local _ .vmem, ⟨3, _⟩ => ⟨S128x64x128, .f32⟩
  | _, _ => ⟨S4096x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S128x64x128_S128x64x128_0_0_0 : ∀ a, (![0, 0, 0] : Fin 3 → Nat) a + S128x64x128.size a ≤ S128x64x128.size a
  h_S128x64x128 : 0 < S128x64x128.numel
  reduces_S128x64x128_S128x128 : S128x64x128.Reduces [1] S128x128
  shapeCasts_S128x128_S128x1x128 : S128x128.ShapeCasts S128x1x128
  broadcasts_S128x1x128_S128x64x128 : S128x1x128.Broadcasts S128x64x128
  shapeCasts_S4096x64x128_S4096x8192 : S4096x64x128.ShapeCasts S4096x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x128.size a ≤ S4096x64x128.size a
  hwx0_0 : ∀ i : grid0.Coords, EltTy.bits .f32 = 32 ∨ (Rect.block (s := S4096x64x128) S128x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64x128.size a ≤ S4096x64x128.size a
  hwx0_1 : ∀ i : grid0.Coords, EltTy.bits .f32 = 32 ∨ (Rect.block (s := S4096x64x128) S128x64x128.size (cc0_transform_1 i) (hinb0_1 i)).WholeWords (EltTy.packing .f32)

variable [Facts₀]

abbrev win0_0 : Pipeline.Window sig grid0 :=
  Pipeline.Window.ofSpec (Memref.whole main_arg0) S128x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x64x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x64x128 : Shape := ⟨3, ![4096, 64, 128]⟩
abbrev S_ : Shape := ⟨0, ![]⟩
abbrev S4096x128 : Shape := ⟨2, ![4096, 128]⟩
abbrev S4096x1x128 : Shape := ⟨3, ![4096, 1, 128]⟩
abbrev S4096x8192 : Shape := ⟨2, ![4096, 8192]⟩

abbrev nBuf : Space → Nat
  | .hbm => 9
  | .vmem => 0
  | .smem => 0
  | _ => 0

abbrev bufTy : (tb : Table) → Fin (tcTables nBuf tb) → BufTy
  | .hbm, ⟨0, _⟩ => ⟨S4096x64x128, .f32⟩
  | .hbm, ⟨1, _⟩ => ⟨S_, .f32⟩
  | .hbm, ⟨2, _⟩ => ⟨S4096x128, .f32⟩
  | .hbm, ⟨3, _⟩ => ⟨S4096x1x128, .f32⟩
  | .hbm, ⟨4, _⟩ => ⟨S4096x64x128, .f32⟩
  | .hbm, ⟨5, _⟩ => ⟨S4096x64x128, .f32⟩
  | .hbm, ⟨6, _⟩ => ⟨S4096x64x128, .f32⟩
  | .hbm, ⟨7, _⟩ => ⟨S4096x64x128, .f32⟩
  | .hbm, ⟨8, _⟩ => ⟨S4096x8192, .f32⟩
  | _, _ => ⟨S4096x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]

class Facts₀ : Prop where
  reducesTo_S4096x64x128_S4096x128_d1 : S4096x64x128.ReducesTo [1] S4096x128
  h_S_ : 0 < S_.numel
  bcast_S4096x128_S4096x1x128_0_2 : S4096x128.BroadcastsInDim S4096x1x128 (![0, 2] : Fin 2 → Fin S4096x1x128.rank)
  bcast_S4096x1x128_S4096x64x128_0_1_2 : S4096x1x128.BroadcastsInDim S4096x64x128 (![0, 1, 2] : Fin 3 → Fin S4096x64x128.rank)
  shapeCasts_S4096x64x128_S4096x8192 : S4096x64x128.ShapeCasts S4096x8192

variable [Facts₀]

class Facts : Prop extends Facts₀ where

variable [Facts]
-- ==== Proof.CrossSpec.lean ====
/-
  The value both programs compute, as one function of the argument array.

  The argument is an array `x` of extended reals indexed by (b, f, d): 4096 rows, 64 fields per row, 128 lanes per
  field. The cross term of field f with all the fields of its row, at lane d, is

      cross x (b, f, d) = x(b,f,d) · (Σ_j x(b,j,d)) − x(b,f,d) · x(b,f,d),

  the sum running over the 64 fields j of row b at lane d. Nothing in it relates different rows: an entry depends on
  the 64 entries of its own row and lane only. So the same formula on a block of 128 consecutive rows (all fields,
  all lanes) gives exactly the rows of the whole array's cross term that the block covers: `crossBlk`, below, and
  `crossBlk_rows`.

  Both sides of the certificate are this one expression, so no law of the extended reals beyond `0 + s = s` is
  used anywhere, and the inputs' finiteness is never needed.
-/
import Idealize.ShloMosaic.PureOps.Ideal
import Idealize.ShloMosaic.Lib.ValueIdx

noncomputable section

namespace Cert.Cross

open Idealize.ShloMosaic Idealize.ShloMosaic.ValueIdx

/-- The whole array: 4096 rows of 64 fields of 128 lanes. -/
abbrev SArr : Shape := ⟨3, ![4096, 64, 128]⟩
/-- A block of 128 consecutive rows, every field and lane of them. -/
abbrev SBlk : Shape := ⟨3, ![128, 64, 128]⟩

/-- The cross term over the whole array: each entry times the sum of its row's fields at its lane, less its square. -/
def cross (x : SArr.Idx → EReal) : SArr.Idx → EReal := fun i =>
  x i * (∑ k : Fin 64, x (ix3 (n0 := 4096) (n1 := 64) (n2 := 128) (i 0) k (i 2))) - x i * x i

/-- The same formula over a block of 128 rows. -/
def crossBlk (x : SBlk.Idx → EReal) : SBlk.Idx → EReal := fun j =>
  x j * (∑ k : Fin 64, x (ix3 (n0 := 128) (n1 := 64) (n2 := 128) (j 0) k (j 2))) - x j * x j

/-- A block's cross term is the whole array's, read on the block's rows. Let `e` place the block's indices in the
    array so that the array row depends on the block row alone (`hrow`) and the field and the lane are kept (`hfield`,
    `hlane`). Then the cross term of the array read through `e` is the array's cross term read through `e`: the row
    sum of the block runs over the same 64 entries as the row sum of the array. -/
theorem crossBlk_rows (X : SArr.Idx → EReal) (e : SBlk.Idx → SArr.Idx)
    (hrow : ∀ y y' : SBlk.Idx, y 0 = y' 0 → e y 0 = e y' 0)
    (hfield : ∀ y : SBlk.Idx, (e y 1).val = (y 1).val)
    (hlane : ∀ y : SBlk.Idx, (e y 2).val = (y 2).val) (j : SBlk.Idx) :
    crossBlk (fun y => X (e y)) j = cross X (e j) := by
  unfold crossBlk cross
  have hsum : ∀ k : Fin 64, e (ix3 (n0 := 128) (n1 := 64) (n2 := 128) (j 0) k (j 2))
      = ix3 (n0 := 4096) (n1 := 64) (n2 := 128) (e j 0) k (e j 2) := by
    intro k
    funext a
    match a with
    | ⟨0, _⟩ => exact hrow _ j rfl
    | ⟨1, _⟩ => exact Fin.ext (hfield _)
    | ⟨2, _⟩ => exact Fin.ext ((hlane _).trans (hlane j).symm)
  simp only [hsum]

end Cert.Cross

end
-- ==== Proof.RefStage.lean ====
/-
  The reference, before its final reshape, computes the cross term.

  The reference sums the argument over the field axis (starting from the constant zero), puts the unit field axis
  back, repeats the row sums along the 64 fields, multiplies by the argument, and subtracts the argument's square.
  Read at an index (b, f, d) this is x(b,f,d) · (0 + Σ_j x(b,j,d)) − x(b,f,d) · x(b,f,d): the cross term, the zero
  dropping out of the sum.
-/
import proofs.«117711_j87883620811000_1_alg».proof.Proof.Gen.ReferenceIdeal.Read
import proofs.«117711_j87883620811000_1_alg».proof.Proof.CrossSpec

noncomputable section

namespace Cert.Cross.Reference

open Cert.ReferenceIdeal Cert.ReferenceIdeal.Gen Cert.ReferenceIdeal.Read Idealize.ShloMosaic Idealize.ShloMosaic.ValueIdx

/-- The index the reference's row sum reads its `k`-th summand at, for the entry (b, f, d): (b, k, d). -/
theorem sum_index (i : S4096x64x128.Idx) (k : Fin 64) :
    idx_main_v0 (idx_main_v1 (idx_main_v2 i)) k = ix3 (n0 := 4096) (n1 := 64) (n2 := 128) (i 0) k (i 2) :=
  funext fun a => Fin.ext (by match a with | ⟨0, _⟩ => rfl | ⟨1, _⟩ => rfl | ⟨2, _⟩ => rfl)

/-- The reference's value before the reshape is the cross term of its argument. -/
theorem stage_eq_cross (x : (⟨S4096x64x128, .f32⟩ : BufTy).Contents (Elt Ideal)) :
    val_main_v5 (F := Ideal) x = Cert.Cross.cross x := by
  funext i
  rw [val_main_v5_apply, val_main_v3_apply, val_main_v4_apply, val_main_v2_apply, val_main_v1_apply,
    val_main_v0_apply, val_main_cst_apply]
  simp only [sum_index, Ideal.subf_def, Ideal.mulf_def, Ideal.ofBits_def, Ideal.ofBits_zero_f32, zero_add]
  rfl

/-- So the reference's result, the reshape of that value to (4096, 8192), is the reshaped cross term. -/
theorem result_eq_cross (x : (⟨S4096x64x128, .f32⟩ : BufTy).Contents (Elt Ideal)) :
    val_main_v6 (F := Ideal) x
      = shapeCast S4096x8192 (Cert.Cross.cross x) shapeCasts_S4096x64x128_S4096x8192 := by
  unfold val_main_v6
  rw [stage_eq_cross]

end Cert.Cross.Reference

end
-- ==== Proof.BodyValue.lean ====
/-
  The kernel body computes the cross term of the block it loads.

  The body loads a block v of 128 rows, sums it over the field axis (a lane sum: at (b, d) the sum of v(b,k,d) over
  the 64 fields k), gives the sums a unit field axis and repeats them along the 64 fields, multiplies by v and
  subtracts v's square. Read at (b, f, d): v(b,f,d) · Σ_k v(b,k,d) − v(b,f,d) · v(b,f,d), the block's cross term.
-/
import proofs.«117711_j87883620811000_1_alg».proof.Proof.Gen.KernelIdeal.Skeleton
import proofs.«117711_j87883620811000_1_alg».proof.Proof.CrossSpec
import Idealize.ShloMosaic.PureOps.Ideal.Laws
import Idealize.ShloMosaic.Lib.Pipeline.Value

noncomputable section

namespace Cert.Cross.Body

open Cert.KernelIdeal Cert.KernelIdeal.Gen Idealize.ShloMosaic Idealize.ShloMosaic.ValueIdx

/-- Row sums with the unit field axis put back and repeated along the fields: the entry at (b, f, d) is the sum
    at (b, d), whatever f. -/
theorem keepdims_repeat_apply (s : FVec Ideal S128x128 .f32) (h₁ : S128x128.ShapeCasts S128x1x128)
    (h₂ : S128x1x128.Broadcasts S128x64x128) (b : Fin 128) (f : Fin 64) (d : Fin 128) :
    broadcastTo S128x64x128 (shapeCast S128x1x128 s h₁) h₂ (ix3 (n0 := 128) (n1 := 64) (n2 := 128) b f d)
      = s (ix2 (n0 := 128) (n1 := 128) b d) := by
  refine (broadcastTo_apply _ h₂ (ix3 (n0 := 128) (n1 := 64) (n2 := 128) b f d)
    (ix3 (n0 := 128) (n1 := 1) (n2 := 128) b 0 d) (fun a => ?_)).trans ?_
  · match a with
    | ⟨0, _⟩ => show b.val = if (128 : Nat) = 1 then 0 else b.val; rw [if_neg (by decide)]
    | ⟨1, _⟩ => show 0 = if (1 : Nat) = 1 then 0 else f.val; rw [if_pos rfl]
    | ⟨2, _⟩ => show d.val = if (128 : Nat) = 1 then 0 else d.val; rw [if_neg (by decide)]
  · refine shapeCast_apply s h₁ _ (ix2 (n0 := 128) (n1 := 128) b d) ?_
    rw [Shape.rowMajor_val_two, Shape.rowMajor_val_three]
    show b.val * 128 + d.val = (b.val * 1 + 0) * 128 + d.val
    omega

/-- The lane sum over the field axis at (b, d) is the sum over the 64 fields k of the block at (b, k, d). -/
theorem fieldSum_apply (v : FVec Ideal S128x64x128 .f32) (h : S128x64x128.Reduces [1] S128x128)
    (hφ : FKind.Formats .f32) (hacc : (0x00000000#32 : BitVec 32) = FKind.add.neutral .f32 hφ)
    (b : Fin 128) (d : Fin 128) :
    multiReduction (F := Ideal) .add [1] S128x128 v 0x00000000#32 h hφ hacc (ix2 (n0 := 128) (n1 := 128) b d)
      = ∑ k : Fin 64, v (ix3 (n0 := 128) (n1 := 64) (n2 := 128) b k d) := by
  refine (Ideal.multiReduction_add_single v 0x00000000#32 h hφ hacc (ix2 (n0 := 128) (n1 := 128) b d)).trans ?_
  refine Finset.sum_congr rfl fun k _ => congrArg v (funext fun a => Fin.ext ?_)
  match a with
  | ⟨0, _⟩ => rfl
  | ⟨1, _⟩ => rfl
  | ⟨2, _⟩ => rfl

/-- The body's stored value is the cross term of the block it loaded. -/
theorem payload_eq_crossBlk (v : Vec Ideal S128x64x128 .f32) :
    k0_pay1 (F := Ideal) v = Cert.Cross.crossBlk v := by
  funext j
  obtain ⟨b, f, d, rfl⟩ : ∃ (b : Fin 128) (f : Fin 64) (d : Fin 128),
      j = ix3 (n0 := 128) (n1 := 64) (n2 := 128) b f d := ⟨j 0, j 1, j 2, eq_ix3 j⟩
  unfold k0_pay1 Cert.Cross.crossBlk
  show v (ix3 b f d) * broadcastTo S128x64x128 (shapeCast S128x1x128
        (multiReduction (F := Ideal) .add [1] S128x128 v 0x00000000#32 reduces_S128x64x128_S128x128 (.inl rfl) rfl)
        shapeCasts_S128x128_S128x1x128) broadcasts_S128x1x128_S128x64x128 (ix3 b f d)
      - v (ix3 b f d) * v (ix3 b f d) = _
  rw [keepdims_repeat_apply]
  exact congrArg (fun s : EReal => v (ix3 b f d) * s - v (ix3 b f d) * v (ix3 b f d))
    (fieldSum_apply v reduces_S128x64x128_S128x128 (.inl rfl) rfl b d)

end Cert.Cross.Body

end
-- ==== Proof.KernelArray.lean ====
/-
  The kernel's output array after the region is the cross term of the argument array.

  The grid has 32 points; point t loads the block of rows 128·t … 128·t + 127 of the argument (every field and lane)
  and writes back the same rows of the output. What it writes is the cross term of the loaded block, which is the
  whole array's cross term on those rows, because an entry's row sum only involves entries of its own row, all of
  which lie in the block. Every row r of the output is written by point r / 128, so after the last point the output
  array is the cross term of the argument array everywhere.
-/
import proofs.«117711_j87883620811000_1_alg».proof.Proof.Gen.KernelIdeal.Frame
import proofs.«117711_j87883620811000_1_alg».proof.Proof.BodyValue
import Idealize.ShloMosaic.Lib.Pipeline.Value

set_option maxRecDepth 16384

noncomputable section

namespace Cert.Cross.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The all-zero offset of the body's load and store. -/
theorem zero_offset : (![0, 0, 0] : Fin 3 → Nat) = fun _ => 0 := funext fun a => by fin_cases a <;> rfl

/-- The block indices at every grid point: the input block and the output block are the same block of rows, and
    both start at field 0 and lane 0. -/
theorem block_indices : ∀ t : Fin cfg0.N, win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0 :=
  (by decide +kernel : ∀ t : Fin grid0.N, _)

/-- Each of the 32 blocks of rows is some grid point's output block. -/
theorem block_of_rows : ∀ q : Fin 32, ∃ t : Fin cfg0.N, win0_1.index t = ![q.val, 0, 0] :=
  (by decide +kernel : ∀ q : Fin 32, ∃ t : Fin grid0.N, win0_1.index t = ![q.val, 0, 0])

/-- What grid point `t` writes back is the cross term of the argument array, read on the point's block. -/
theorem written_eq_cross (c : Dev nD) (t : Fin cfg0.N) :
    (dats m 0 c).flushed 1 t
      = ((cfg0.win 1).blk t).view.read (Elt Ideal) (Cert.Cross.cross (V m c main_arg0)) := by
  show (cfg0.win 1).cut (grid0.coords t) ((dats m 0 c).after 1 t) = _
  rw [after0_1]
  unfold out0_1
  rw [View.canon_unit_zero zero_offset]
  simp only [View.ld_unit_zero (S := S128x64x128) zero_offset]
  rw [Cert.Cross.Body.payload_eq_crossBlk]
  obtain ⟨e0, e1, e2, e3, e4⟩ := block_indices t
  funext j
  show Cert.Cross.crossBlk (fun y => V m c main_arg0 (((cfg0.win 0).blk t).view.emb y)) j
      = Cert.Cross.cross (V m c main_arg0) (((cfg0.win 1).blk t).view.emb j)
  have hsame : ((cfg0.win 0).blk t).view.emb j = ((cfg0.win 1).blk t).view.emb j := by
    funext a; apply Fin.ext
    match a with
    | ⟨0, _⟩ => show win0_0.index t (0 : Fin 3) * 128 + 1 * (j 0).val = win0_1.index t (0 : Fin 3) * 128 + 1 * (j 0).val; omega
    | ⟨1, _⟩ => show win0_0.index t (1 : Fin 3) * 64 + 1 * (j 1).val = win0_1.index t (1 : Fin 3) * 64 + 1 * (j 1).val; omega
    | ⟨2, _⟩ => show win0_0.index t (2 : Fin 3) * 128 + 1 * (j 2).val = win0_1.index t (2 : Fin 3) * 128 + 1 * (j 2).val; omega
  refine (Cert.Cross.crossBlk_rows (V m c main_arg0) (fun y => ((cfg0.win 0).blk t).view.emb y) ?_ ?_ ?_ j).trans
    (congrArg _ hsame)
  · intro y y' h
    apply Fin.ext
    have hv : (y 0).val = (y' 0).val := congrArg Fin.val h
    show win0_0.index t (0 : Fin 3) * 128 + 1 * (y 0).val = win0_0.index t (0 : Fin 3) * 128 + 1 * (y' 0).val
    omega
  · intro y
    show win0_0.index t (1 : Fin 3) * 64 + 1 * (y 1).val = (y 1).val
    omega
  · intro y
    show win0_0.index t (2 : Fin 3) * 128 + 1 * (y 2).val = (y 2).val
    omega

/-- An index of the output array is in point `t`'s block iff each coordinate is in the block's range on its axis. -/
theorem mem_block (t : Fin cfg0.N) (i : S4096x64x128.Idx) :
    i ∈ ((cfg0.win 1).blk t).view.set ↔ ∀ a : Fin 3, win0_1.index t a * S128x64x128.size a ≤ (i a).val
      ∧ (i a).val < win0_1.index t a * S128x64x128.size a + S128x64x128.size a := by
  show i ∈ ((View.whole main_v0).slice (win0_1.rect t)).set ↔ _
  rw [View.set_slice_whole, Rect.mem_set_unit]
  exact Iff.rfl

/-- Every index of the output array is written: row r by the point whose block of rows is r / 128. -/
theorem every_index_written (i : S4096x64x128.Idx) :
    ∃ t : Fin cfg0.N, (cfg0.win 1).flush t = true ∧ i ∈ ((cfg0.win 1).blk t).view.set := by
  have hi0 : (i 0).val < 4096 := (i 0).isLt
  have hi1 : (i 1).val < 64 := (i 1).isLt
  have hi2 : (i 2).val < 128 := (i 2).isLt
  obtain ⟨t, ht⟩ := block_of_rows ⟨(i 0).val / 128, by omega⟩
  have q0 : win0_1.index t (0 : Fin 3) = (i 0).val / 128 := congrFun ht 0
  have q1 : win0_1.index t (1 : Fin 3) = 0 := congrFun ht 1
  have q2 : win0_1.index t (2 : Fin 3) = 0 := congrFun ht 2
  refine ⟨t, flush0_1 t, ?_⟩
  rw [mem_block]
  intro a
  match a with
  | ⟨0, _⟩ => show win0_1.index t (0 : Fin 3) * 128 ≤ (i 0).val ∧ (i 0).val < win0_1.index t (0 : Fin 3) * 128 + 128; omega
  | ⟨1, _⟩ => show win0_1.index t (1 : Fin 3) * 64 ≤ (i 1).val ∧ (i 1).val < win0_1.index t (1 : Fin 3) * 64 + 64; omega
  | ⟨2, _⟩ => show win0_1.index t (2 : Fin 3) * 128 ≤ (i 2).val ∧ (i 2).val < win0_1.index t (2 : Fin 3) * 128 + 128; omega

/-- The output array after the last grid point is the cross term of the argument array. -/
theorem output_eq_cross (c : Dev nD) :
    (dats m 0 c).arrAt 1 cfg0.N = Cert.Cross.cross (m ((c : Thread nD τ).loc main_arg0)) :=
  (dats m 0 c).arrAt_eq_of_cover 1 _ (fun t _ => written_eq_cross m c t) every_index_written

end Cert.Cross.Kernel

end
-- ==== Proof.KernelRun.lean ====
/-
  The kernel program's run: its result is the reshaped cross term of its argument.

  After the region the program reshapes the output array from (4096, 64, 128) to (4096, 8192). The region leaves the
  output array at the cross term of the argument, so the program's result is that cross term reshaped, and the
  argument array is as it was.
-/
import proofs.«117711_j87883620811000_1_alg».proof.Proof.KernelArray
import Idealize.ShloMosaic.Lib.StableHlo.Run

noncomputable section

namespace Cert.Cross.Kernel

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The reshape from (4096, 64, 128) to (4096, 8192) that ends the program. -/
def flatten (A : S4096x64x128.Idx → EReal) : S4096x8192.Idx → EReal :=
  shapeCast S4096x8192 A shapeCasts_S4096x64x128_S4096x8192

/-- The one operation after the region, from any buffer contents: the result buffer holds the reshape of whatever the
    region's output buffer holds. -/
theorem tail_apply (W : Valuation τ sig (Elt Ideal)) :
    StableHlo.after hostOps1 W (Proc.devRef .tc main_v1) = flatten (W (Proc.devRef .tc main_v0)) := by
  unfold flatten
  after_results
  rfl

/-- The program's result, as the frame run states it, is the reshaped cross term of the argument array. -/
theorem result_eq (c : Dev nD) :
    Pipeline.afterTail₀ cfgs (dats m) 0 (V0 m) [hostOps1] c main_v1
      = flatten (Cert.Cross.cross (m ((c : Thread nD τ).loc main_arg0))) := by
  unfold Pipeline.afterTail₀
  show StableHlo.after hostOps1 _ (Proc.devRef .tc main_v1) = _
  rw [tail_apply]
  exact congrArg flatten
    ((Pipeline.withArrays_arr spec0 launch0.win.arr_inj c _ _ 1).trans (output_eq_cross m c))

/-- The result buffer is no array of the region and is never freed, so the frame run reports it as the operations
    after the region leave it. -/
theorem result_bypasses : main_v1 ∈ Pipeline.restRefs sig (cfgs 0).spec :=
  Pipeline.mem_restRefs_of main_v1 rfl (by decide)

/-- Every weakly fair execution of the kernel program terminates with its result at the reshaped cross term of the
    argument array, and the argument array unchanged. -/
theorem run : θ_run defs (onTc (τ := τ) (main (F := Ideal))) ⟨m, fun _ => 0, ρ⟩ fun r => ∀ c : Dev nD,
      r.2.mem ((c.tc : Thread nD τ).loc main_v1) = flatten (Cert.Cross.cross (m ((c.tc : Thread nD τ).loc main_arg0)))
      ∧ r.2.mem ((c.tc : Thread nD τ).loc main_arg0) = m ((c.tc : Thread nD τ).loc main_arg0) :=
  (θ_run defs _ _).mono (fun r h c =>
      ⟨((h c).2 main_v1 result_bypasses).trans (result_eq m c),
       ((h c).1 0).trans (((dats m 0 c).arrAt_in 0 rfl _).trans ((A_eq m c 0).trans (V_main_arg0 m c)))⟩)
    (run_main m ρ)

end Cert.Cross.Kernel

end
-- ==== Proof.lean ====
/-
  The kernel and its reference compute the same array, as extended reals.

  The argument x has 4096 rows of 64 fields of 128 lanes. Both programs return, reshaped to (4096, 64·128), the
  cross term

      cross x (b, f, d) = x(b,f,d) · (Σ_j x(b,j,d)) − x(b,f,d) · x(b,f,d),

  the sum over the 64 fields j of row b at lane d (Proof/CrossSpec.lean).

  The reference computes it over the whole array at once: a sum over the field axis starting from zero, the sums
  repeated along the fields, a product, a square and a difference (Proof/RefStage.lean). The kernel computes it 128
  rows at a time: grid point t loads rows 128·t … 128·t + 127 and writes back the cross term of that block
  (Proof/BodyValue.lean). An entry's row sum involves only the entries of its own row, and a block holds whole rows,
  so a block's cross term is the whole array's on the block's rows; the 32 blocks cover every row, hence the output
  array ends at the cross term of the argument (Proof/KernelArray.lean), which the program then reshapes
  (Proof/KernelRun.lean). The two results are the same expression of the argument entry by entry; the only law of
  the extended reals used is 0 + s = s, for the zero the reference's sum starts from, and the finiteness of the
  inputs is not needed.

  Each program terminates without a fault and leaves its argument as it was: for the two kernel programs this is
  the generated frame run, for the reference its generated run. The idealized kernel is the kernel's own text read
  over the extended reals (no operation was rewritten), so there is nothing to preserve.
-/
import proofs.«117711_j87883620811000_1_alg».proof.Defs
import proofs.«117711_j87883620811000_1_alg».proof.Proof.Gen.Kernel.Frame
import proofs.«117711_j87883620811000_1_alg».proof.Proof.Gen.KernelIdeal.Frame
import proofs.«117711_j87883620811000_1_alg».proof.Proof.Gen.ReferenceIdeal.Run
import proofs.«117711_j87883620811000_1_alg».proof.Proof.Gen.ReferenceIdeal.Read
import proofs.«117711_j87883620811000_1_alg».proof.Proof.Gen.Pre_finite_inputs
import proofs.«117711_j87883620811000_1_alg».proof.Proof.RefStage
import proofs.«117711_j87883620811000_1_alg».proof.Proof.KernelRun

noncomputable section

namespace Cert.Proof

open Idealize.ShloMosaic Idealize.ShloMosaic.TcCoe Idealize.SL.Sem

/-- The kernel program terminates, faults nowhere and leaves its argument unchanged. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- So does the reference: its run, with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From argument arrays that agree, the kernel's result and the reference's result are both the reshaped cross
    term of the argument. -/
theorem algebraic : Cert.algebraic_KernelIdeal_ReferenceIdeal := by
  intro m ρ m' ρ' _ hagree
  refine ⟨fun c => Cert.Cross.Kernel.flatten
      (Cert.Cross.cross (m ((c.tc : Thread Cert.KernelIdeal.nD Cert.KernelIdeal.τ).loc Cert.KernelIdeal.main_arg0))),
    Cert.Cross.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.Cross.Reference.result_eq_cross, hagree c]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
